-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048 : Shape := ⟨2, ![256, 2048]⟩
abbrev S256 : Shape := ⟨1, ![256]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel

variable [Facts]

def fn {F : FTy → Type} [FloatOps F] (main_arg0 : FVec F S256x2048 .f32) (main_arg1 : IVec S256 32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  main_v3
-- ==== Kernel.lean ====
abbrev S256x2048 : Shape := ⟨2, ![256, 2048]⟩
abbrev S256 : Shape := ⟨1, ![256]⟩
abbrev S256x256 : Shape := ⟨2, ![256, 256]⟩
abbrev S256x1 : Shape := ⟨2, ![256, 1]⟩
abbrev S2048x256 : Shape := ⟨2, ![2048, 256]⟩
abbrev S1x256 : Shape := ⟨2, ![1, 256]⟩
abbrev S256x256x256 : Shape := ⟨3, ![256, 256, 256]⟩
abbrev S16x256 : Shape := ⟨2, ![16, 256]⟩
abbrev S16x1 : Shape := ⟨2, ![16, 1]⟩
abbrev S16x256x256 : Shape := ⟨3, ![16, 256, 256]⟩
abbrev S16x256x1 : Shape := ⟨3, ![16, 256, 1]⟩
abbrev S16x1x256 : Shape := ⟨3, ![16, 1, 256]⟩

abbrev nBuf : Space → Nat
  | .hbm => 6
  | .vmem => 9
  | .smem => 0
  | _ => 0

abbrev bufTy : (tb : Table) → Fin (tcTables nBuf tb) → BufTy
  | .hbm, ⟨0, _⟩ => ⟨S256x2048, .f32⟩
  | .hbm, ⟨1, _⟩ => ⟨S256, .i32⟩
  | .hbm, ⟨2, _⟩ => ⟨S256x256, .f32⟩
  | .hbm, ⟨3, _⟩ => ⟨S256x1, .i32⟩
  | .hbm, ⟨4, _⟩ => ⟨S1x256, .i32⟩
  | .hbm, ⟨5, _⟩ => ⟨S256x256x256, .f32⟩
  | .local _ .vmem, ⟨0, _⟩ => ⟨S256x2048, .f32⟩
  | .local _ .vmem, ⟨1, _⟩ => ⟨S256x256, .f32⟩
  | .local _ .vmem, ⟨2, _⟩ => ⟨S16x256, .f32⟩
  | .local _ .vmem, ⟨3, _⟩ => ⟨S16x256, .f32⟩
  | .local _ .vmem, ⟨4, _⟩ => ⟨S16x1, .i32⟩
  | .local _ .vmem, ⟨5, _⟩ => ⟨S16x1, .i32⟩
  | .local _ .vmem, ⟨6, _⟩ => ⟨S1x256, .i32⟩
  | .local _ .vmem, ⟨7, _⟩ => ⟨S16x256x256, .f32⟩
  | .local _ .vmem, ⟨8, _⟩ => ⟨S16x256x256, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  transposes_S256x2048_p1_0_S2048x256 : S256x2048.Transposes [1, 0] S2048x256
  transposes_S256x1_p1_0_S1x256 : S256x1.Transposes [1, 0] S1x256
  broadcasts_S256x1_S256x256 : S256x1.Broadcasts S256x256
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S256_S1x256 : S256.ShapeCasts S1x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S16x1_S16x256 : S16x1.Broadcasts S16x256
  broadcasts_S1x256_S16x256 : S1x256.Broadcasts S16x256
  natLt_1_32 : 1 < 32
  shapeCasts_S16x256_S16x256x1 : S16x256.ShapeCasts S16x256x1
  shapeCasts_S16x256_S16x1x256 : S16x256.ShapeCasts S16x1x256
  broadcasts_S16x256x1_S16x256x256 : S16x256x1.Broadcasts S16x256x256
  broadcasts_S16x1x256_S16x256x256 : S16x1x256.Broadcasts S16x256x256
  inb_S16x256x256_S16x256x256_0_0_0 : ∀ a, (![0, 0, 0] : Fin 3 → Nat) a + S16x256x256.size a ≤ S16x256x256.size a
  h_S16x256x256 : 0 < S16x256x256.numel
  dot_S256x2048_S2048x256_S256x256_1_0_0_1_n_n_wf : DotDims.WF S256x2048 S2048x256 S256x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x2048.size a
  hwx0_0 : ∀ i : grid0.Coords, EltTy.bits .f32 = 32 ∨ (Rect.block (s := S256x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x256.size a ≤ S256x256.size a
  hwx1_0 : ∀ i : grid1.Coords, EltTy.bits .f32 = 32 ∨ (Rect.block (s := S256x256) S16x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x1.size a ≤ S256x1.size a
  hwx1_1 : ∀ i : grid1.Coords, EltTy.bits .i32 = 32 ∨ (Rect.block (s := S256x1) S16x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .i32 = 32 ∨ (Rect.block (s := S1x256) S1x256.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x256x256.size a ≤ S256x256x256.size a
  hwx1_3 : ∀ i : grid1.Coords, EltTy.bits .f32 = 32 ∨ (Rect.block (s := S256x256x256) S16x256x256.size (cc1_transform_3 i) (hinb1_3 i)).WholeWords (EltTy.packing .f32)

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_arg0) S256x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S16x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S16x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S16x256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S256x2048 : Shape := ⟨2, ![256, 2048]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2048x256 : Shape := ⟨2, ![2048, 256]⟩
abbrev S256x256x1 : Shape := ⟨3, ![256, 256, 1]⟩
abbrev S256x1x256 : Shape := ⟨3, ![256, 1, 256]⟩
abbrev S256x256x256 : Shape := ⟨3, ![256, 256, 256]⟩

abbrev nBuf : Space → Nat
  | .hbm => 48
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256, .i32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S1x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S2048x256, .f32⟩
  | .hbm, ⟨11, _⟩ => ⟨S256x256, .f32⟩
  | .hbm, ⟨12, _⟩ => ⟨S_, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S_, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x1, .i32⟩
  | .hbm, ⟨22, _⟩ => ⟨S1x256, .i32⟩
  | .hbm, ⟨23, _⟩ => ⟨S256x256, .i32⟩
  | .hbm, ⟨24, _⟩ => ⟨S256x256, .i32⟩
  | .hbm, ⟨25, _⟩ => ⟨S256x256, .i1⟩
  | .hbm, ⟨26, _⟩ => ⟨S256x256x1, .f32⟩
  | .hbm, ⟨27, _⟩ => ⟨S256x1x256, .f32⟩
  | .hbm, ⟨28, _⟩ => ⟨S256x256x256, .f32⟩
  | .hbm, ⟨29, _⟩ => ⟨S256x256x256, .f32⟩
  | .hbm, ⟨30, _⟩ => ⟨S256x256x256, .f32⟩
  | .hbm, ⟨31, _⟩ => ⟨S_, .f32⟩
  | .hbm, ⟨32, _⟩ => ⟨S256x256x256, .f32⟩
  | .hbm, ⟨33, _⟩ => ⟨S256x256x256, .f32⟩
  | .hbm, ⟨34, _⟩ => ⟨S_, .f32⟩
  | .hbm, ⟨35, _⟩ => ⟨S_, .f32⟩
  | .hbm, ⟨36, _⟩ => ⟨S256x256x256, .f32⟩
  | .hbm, ⟨37, _⟩ => ⟨S256x256x256, .f32⟩
  | .hbm, ⟨38, _⟩ => ⟨S256x256x1, .i1⟩
  | .hbm, ⟨39, _⟩ => ⟨S256x256, .i1⟩
  | .hbm, ⟨40, _⟩ => ⟨S256x1x256, .i1⟩
  | .hbm, ⟨41, _⟩ => ⟨S256x256x256, .i1⟩
  | .hbm, ⟨42, _⟩ => ⟨S256x256x256, .i1⟩
  | .hbm, ⟨43, _⟩ => ⟨S256x256x256, .i1⟩
  | .hbm, ⟨44, _⟩ => ⟨S_, .f32⟩
  | .hbm, ⟨45, _⟩ => ⟨S_, .f32⟩
  | .hbm, ⟨46, _⟩ => ⟨S256x256x256, .f32⟩
  | .hbm, ⟨47, _⟩ => ⟨S256x256x256, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_call2_v0 : Ref sig .tc := ⟨.hbm, 45, rfl⟩
abbrev main_call2_v1 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  reducesTo_S256x2048_S256_d1 : S256x2048.ReducesTo [1] S256
  h_S_ : 0 < S_.numel
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  transposes_S256x2048_S2048x256_1_0 : S256x2048.Transposes [1, 0] S2048x256
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  bcast_S256x256_S256x1x256_0_2 : S256x256.BroadcastsInDim S256x1x256 (![0, 2] : Fin 2 → Fin S256x1x256.rank)
  bcast_S256x256x1_S256x256x256_0_1_2 : S256x256x1.BroadcastsInDim S256x256x256 (![0, 1, 2] : Fin 3 → Fin S256x256x256.rank)
  bcast_S256x1x256_S256x256x256_0_1_2 : S256x1x256.BroadcastsInDim S256x256x256 (![0, 1, 2] : Fin 3 → Fin S256x256x256.rank)
  bcast_S_S256x256x256 : S_.BroadcastsInDim S256x256x256 (![] : Fin 0 → Fin S256x256x256.rank)
  dot_S256x2048_S2048x256_S256x256_1_0_0_1_n_n_wf : DotDims.WF S256x2048 S2048x256 S256x256 [1] [0] [0] [1] [] []

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

class Facts : Prop extends Facts₀ where

variable [Facts]
-- ==== Proof.TripletSpec.lean ====
/-
  The function both programs compute, index by index, on the extended reals.

  For a matrix `x` of 256 rows of 2048 entries and a label per row: the squared norm of a row, the inner product of
  two rows, the clamped distance `d(a, b) = √(max(|a|² + |b|² - 2·⟨a, b⟩, ε))`, and for an anchor `a`, a positive
  `p` and a negative `n` the margin term `max(d(a, p) - d(a, n) + μ, ε)`, kept where `a` and `p` carry the same
  label and `a` and `n` different ones, and zero elsewhere. The constants `2`, `ε`, `μ` are the programs' own float
  words, the same words in both, so their values are never needed.

  One program multiplies the margin term by the product of two 0/1 indicators; the other selects between the term and
  zero on the conjunction of the two comparisons. On the extended reals `y · 1 = y` and `y · 0 = 0` for every `y`,
  infinite ones included, so the two agree with no finiteness assumption.
-/
import Idealize.ShloMosaic.PureOps.Ideal
import Idealize.ShloMosaic.Lib.ValueIdx

noncomputable section

open scoped BigOperators

namespace Cert.TripletSpec

open Idealize.ShloMosaic Idealize.ShloMosaic.ValueIdx

/-- The squared norm of row `a`. -/
def sqn (x : (⟨2, ![256, 2048]⟩ : Shape).Idx → EReal) (a : Fin 256) : EReal :=
  ∑ k : Fin 2048, x (ix2 a k) * x (ix2 a k)

/-- The inner product of rows `a` and `b`. -/
def gram (x : (⟨2, ![256, 2048]⟩ : Shape).Idx → EReal) (a b : Fin 256) : EReal :=
  ∑ k : Fin 2048, x (ix2 a k) * x (ix2 b k)

/-- The clamped distance between rows `a` and `b`. -/
def rowDist (x : (⟨2, ![256, 2048]⟩ : Shape).Idx → EReal) (a b : Fin 256) : EReal :=
  Ideal.sqrt (max (sqn x a + sqn x b - Ideal.ofBits .f32 0x40000000#32 * gram x a b) (Ideal.ofBits .f32 0x2B8CBCCC#32))

/-- The margin term of an anchor, a positive and a negative, from a matrix of distances. -/
def margin (D : Fin 256 → Fin 256 → EReal) (a p n : Fin 256) : EReal :=
  max (D a p - D a n + Ideal.ofBits .f32 0x3E99999A#32) (Ideal.ofBits .f32 0x2B8CBCCC#32)

/-- The result: the margin term where the anchor's label is the positive's and is not the negative's, zero elsewhere. -/
def result (x : (⟨2, ![256, 2048]⟩ : Shape).Idx → EReal) (t : (⟨1, ![256]⟩ : Shape).Idx → BitVec 32) :
    (⟨3, ![256, 256, 256]⟩ : Shape).Idx → EReal := fun i =>
  if t (ix1 (i 0)) = t (ix1 (i 1)) ∧ t (ix1 (i 0)) ≠ t (ix1 (i 2)) then margin (rowDist x) (i 0) (i 1) (i 2) else 0

/-! ## Two words compared: the one-bit answers -/

theorem cmpi_eq_of_eq {u v : BitVec 32} (h : u = v) : IntOp.cmpi .eq u v = 1#1 := by
  subst h; simp [IntOp.cmpi]

theorem cmpi_eq_of_ne {u v : BitVec 32} (h : u ≠ v) : IntOp.cmpi .eq u v = 0#1 := by
  show BitVec.ofBool (u == v) = 0#1
  rw [beq_eq_false_iff_ne.mpr h]; rfl

theorem cmpi_ne_of_eq {u v : BitVec 32} (h : u = v) : IntOp.cmpi .ne u v = 0#1 := by
  subst h; simp [IntOp.cmpi]

theorem cmpi_ne_of_ne {u v : BitVec 32} (h : u ≠ v) : IntOp.cmpi .ne u v = 1#1 := by
  show BitVec.ofBool (u != v) = 1#1
  rw [bne_iff_ne.mpr h]; rfl

/-- A set bit widened to a word and read as a signed integer is the extended real `1`. -/
theorem one_bit_real : ((((1#1 : BitVec 1).setWidth 32).toInt : ℝ) : EReal) = 1 := by
  have h : ((1#1 : BitVec 1).setWidth 32).toInt = 1 := by decide
  rw [h]; norm_num

/-- A clear bit widened to a word and read as a signed integer is the extended real `0`. -/
theorem zero_bit_real : ((((0#1 : BitVec 1).setWidth 32).toInt : ℝ) : EReal) = 0 := by
  have h : ((0#1 : BitVec 1).setWidth 32).toInt = 0 := by decide
  rw [h]; norm_num

/-! ## The law that joins the two programs -/

/-- A product with the two 0/1 indicators is the value where both hold and zero elsewhere: `y · 1 = y` and `y · 0 = 0`
    for every extended real `y`. -/
theorem mul_indicators (y : EReal) (u v w : BitVec 32) :
    y * (((((IntOp.cmpi .eq u v).setWidth 32).toInt : ℝ) : EReal) * ((((IntOp.cmpi .ne u w).setWidth 32).toInt : ℝ) : EReal))
      = if u = v ∧ u ≠ w then y else 0 := by
  by_cases h1 : u = v
  · by_cases h2 : u = w
    · rw [cmpi_eq_of_eq h1, cmpi_ne_of_eq h2, one_bit_real, zero_bit_real, mul_zero, mul_zero,
        if_neg (fun h => h.2 h2)]
    · rw [cmpi_eq_of_eq h1, cmpi_ne_of_ne h2, one_bit_real, mul_one, mul_one, if_pos ⟨h1, h2⟩]
  · rw [cmpi_eq_of_ne h1, zero_bit_real, zero_mul, mul_zero, if_neg (fun h => h1 h.1)]

/-- A select on the conjunction of "equal" with the complement of "equal" is the same choice. -/
theorem select_and_not (y z : EReal) (u v w : BitVec 32) :
    Scalar.select (IntOp.andi (IntOp.cmpi .eq u v) (~~~ IntOp.cmpi .eq u w)) y z = if u = v ∧ u ≠ w then y else z := by
  by_cases h1 : u = v
  · by_cases h2 : u = w
    · rw [cmpi_eq_of_eq h1, cmpi_eq_of_eq h2, if_neg (fun h => h.2 h2)]
      exact if_neg (by decide)
    · rw [cmpi_eq_of_eq h1, cmpi_eq_of_ne h2, if_pos ⟨h1, h2⟩]
      exact if_pos (by decide)
  · rw [cmpi_eq_of_ne h1, if_neg (fun h => h1 h.1)]
    by_cases h2 : u = w
    · rw [cmpi_eq_of_eq h2]; exact if_neg (by decide)
    · rw [cmpi_eq_of_ne h2]; exact if_neg (by decide)

end Cert.TripletSpec

end
-- ==== Proof.KernelRun.lean ====
/-
  The idealized kernel's run with its result array named. The program is two pipelined regions with a stretch of
  host reshapes between them; after the second region every unscoped buffer of a core holds the last boundary's
  contents, so the result array holds that boundary's contents at the result buffer, and the two argument arrays
  hold what they were launched with.
-/
import proofs.«127256_j67010079752234_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result array ends at the last
    boundary's contents of the result buffer, and both argument arrays end as launched. -/
theorem run_result : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c)⟩)

end Cert.KernelIdeal.RunValue

end
-- ==== Proof.Region0Value.lean ====
/-
  The distance array after the first region.

  The first region's grid has one point, and at that point each window's block is its whole array (block index zero on
  both axes, block extents the array's). So the point reads the whole argument matrix, and what it writes back covers the
  whole output array: after the region that array is the first kernel body's stored value of the argument matrix.
-/
import proofs.«127256_j67010079752234_2_alg».proof.Proof.Gen.KernelIdeal.Frame
import Idealize.ShloMosaic.Lib.Pipeline.Value
import Idealize.ShloMosaic.PureOps.Ideal

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

theorem offsets_zero : (![0, 0] : Fin 2 → Nat) = fun _ => 0 := funext fun a => by fin_cases a <;> rfl

/-- At the one grid point both windows sit at block index zero on both axes. -/
theorem index_zero : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The input window's block at the point is the whole argument matrix as launched. -/
theorem input_block (c : Dev nD) (t : Fin cfg0.N) :
    iblk0 (V0 m ρ) c 0 t = m ((c : Thread nD τ).loc main_arg0) := by
  obtain ⟨e0, e1, -, -⟩ := index_zero t
  funext y
  show V0 m ρ c main_arg0 (((cfg0.win 0).blk t).view.emb y) = m ((c : Thread nD τ).loc main_arg0) y
  have h : ((cfg0.win 0).blk t).view.emb y = y := by
    funext a; apply Fin.ext
    match a with
    | ⟨0, _⟩ => show win0_0.index t (0 : Fin 2) * 256 + 1 * (y 0).val = (y 0).val; omega
    | ⟨1, _⟩ => show win0_0.index t (1 : Fin 2) * 2048 + 1 * (y 1).val = (y 1).val; omega
  rw [h]

/-- What the point writes back is its block of the stored value of the whole argument matrix. -/
theorem flushed_eq (c : Dev nD) (t : Fin cfg0.N) :
    (dat0 (V0 m ρ) c).flushed 1 t
      = ((cfg0.win 1).blk t).view.read (Elt Ideal) (k0_pay1 (F := Ideal) (m ((c : Thread nD τ).loc main_arg0))) := by
  show (cfg0.win 1).cut (grid0.coords t) ((dat0 (V0 m ρ) c).after 1 t) = _
  rw [after0_1]
  unfold out0_1
  rw [View.canon_unit_zero offsets_zero]
  simp only [View.ld_unit_zero (S := S256x2048) offsets_zero]
  rw [input_block m ρ c t]
  obtain ⟨-, -, e2, e3⟩ := index_zero t
  funext j
  show k0_pay1 (F := Ideal) (m ((c : Thread nD τ).loc main_arg0)) j
    = k0_pay1 (F := Ideal) (m ((c : Thread nD τ).loc main_arg0)) (((cfg0.win 1).blk t).view.emb j)
  have h : ((cfg0.win 1).blk t).view.emb j = j := by
    funext a; apply Fin.ext
    match a with
    | ⟨0, _⟩ => show win0_1.index t (0 : Fin 2) * 256 + 1 * (j 0).val = (j 0).val; omega
    | ⟨1, _⟩ => show win0_1.index t (1 : Fin 2) * 256 + 1 * (j 1).val = (j 1).val; omega
  rw [h]

/-- An index of the output array is in the point's block iff each coordinate is in the block's range. -/
theorem mem_blk (t : Fin cfg0.N) (i : S256x256.Idx) :
    i ∈ ((cfg0.win 1).blk t).view.set ↔ ∀ a : Fin 2, win0_1.index t a * S256x256.size a ≤ (i a).val ∧ (i a).val < win0_1.index t a * S256x256.size a + S256x256.size a := by
  show i ∈ ((View.whole main_v0).slice (win0_1.rect t)).set ↔ _
  rw [View.set_slice_whole, Rect.mem_set_unit]
  exact Iff.rfl

/-- Every index of the output array is in the one point's block. -/
theorem cover (i : S256x256.Idx) : ∃ t : Fin cfg0.N, (cfg0.win 1).flush t = true ∧ i ∈ ((cfg0.win 1).blk t).view.set := by
  refine ⟨t0_0, flush0_1 t0_0, ?_⟩
  obtain ⟨-, -, e2, e3⟩ := index_zero t0_0
  rw [mem_blk]
  intro a
  match a with
  | ⟨0, _⟩ =>
    show win0_1.index t0_0 (0 : Fin 2) * 256 ≤ (i 0).val ∧ (i 0).val < win0_1.index t0_0 (0 : Fin 2) * 256 + 256
    have hi : (i 0).val < 256 := (i 0).isLt
    omega
  | ⟨1, _⟩ =>
    show win0_1.index t0_0 (1 : Fin 2) * 256 ≤ (i 1).val ∧ (i 1).val < win0_1.index t0_0 (1 : Fin 2) * 256 + 256
    have hi : (i 1).val < 256 := (i 1).isLt
    omega

/-- After the first region the distance array is the stored value of the whole argument matrix. -/
theorem dist_array (c : Dev nD) :
    W1 m ρ c (Proc.devRef .tc main_v0) = k0_pay1 (F := Ideal) (m ((c : Thread nD τ).loc main_arg0)) :=
  (W1_arr m ρ c 1).trans
    ((dat0 (V0 m ρ) c).arrAt_eq_of_cover 1 _ (fun t _ => flushed_eq m ρ c t) cover)

end Cert.KernelIdeal.Region0

end
-- ==== Proof.Between.lean ====
/-
  The arrays the second region is entered with.

  Between the two regions the host reshapes the label vector twice, to a column and to a row; it writes nothing else.
  So at the second region's entry the distance array is what the first region left, the column holds the labels in order
  down its one column and the row holds them in order along its one row.
-/
import proofs.«127256_j67010079752234_2_alg».proof.Proof.Gen.KernelIdeal.Frame
import proofs.«127256_j67010079752234_2_alg».proof.Proof.Region0Value
import Idealize.ShloMosaic.Lib.StableHlo.Run
import Idealize.ShloMosaic.PureOps.Ideal

set_option maxRecDepth 16384

noncomputable section

namespace Cert.KernelIdeal.Between

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The host stretch leaves the distance array as it finds it. -/
theorem after_dist (W : Valuation τ sig (Elt Ideal)) :
    StableHlo.after (hostOps1 (F := Ideal)) W (Proc.devRef .tc main_v0) = W (Proc.devRef .tc main_v0) := by
  after_results

/-- After it the column buffer holds the label vector cast to a column. -/
theorem after_col (W : Valuation τ sig (Elt Ideal)) :
    StableHlo.after (hostOps1 (F := Ideal)) W (Proc.devRef .tc main_v1)
      = shapeCast S256x1 (W (Proc.devRef .tc main_arg1)) shapeCasts_S256_S256x1 := by
  after_results
  rfl

/-- After it the row buffer holds the label vector cast to a row. -/
theorem after_row (W : Valuation τ sig (Elt Ideal)) :
    StableHlo.after (hostOps1 (F := Ideal)) W (Proc.devRef .tc main_v2)
      = shapeCast S1x256 (W (Proc.devRef .tc main_arg1)) shapeCasts_S256_S1x256 := by
  after_results
  rfl

/-- The first region does not touch the label vector. -/
theorem labels_kept (c : Dev nD) : W1 m ρ c (Proc.devRef .tc main_arg1) = m ((c : Thread nD τ).loc main_arg1) :=
  (W1_of_ne m ρ c main_arg1 (by decide)).trans rfl

/-- At the second region's entry the distance array is the first kernel's stored value of the argument matrix. -/
theorem entry_dist (c : Dev nD) :
    V2 m ρ c main_v0 = k0_pay1 (F := Ideal) (m ((c : Thread nD τ).loc main_arg0)) :=
  (after_dist (W1 m ρ c)).trans (Region0.dist_array m ρ c)

/-- At the second region's entry the column buffer is the launched label vector as a column. -/
theorem entry_col (c : Dev nD) :
    V2 m ρ c main_v1 = shapeCast S256x1 (m ((c : Thread nD τ).loc main_arg1)) shapeCasts_S256_S256x1 := by
  refine (after_col (W1 m ρ c)).trans ?_
  rw [labels_kept m ρ c]

/-- At the second region's entry the row buffer is the launched label vector as a row. -/
theorem entry_row (c : Dev nD) :
    V2 m ρ c main_v2 = shapeCast S1x256 (m ((c : Thread nD τ).loc main_arg1)) shapeCasts_S256_S1x256 := by
  refine (after_row (W1 m ρ c)).trans ?_
  rw [labels_kept m ρ c]

end Cert.KernelIdeal.Between

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.DistKernel.lean ====
/-
  The first kernel body's stored value, read at an entry `(a, b)`, is the clamped distance between rows `a` and `b`.

  The body squares the block entrywise and sums each row (a lane sum over the second axis), keeps the sums as a column,
  turns the column into a row by a transpose, and broadcasts both to the square: at `(a, b)` the column gives the squared
  norm of row `a` and the row that of row `b`. The matrix product of the block with its own transpose, onto a zero
  accumulator, is at `(a, b)` the inner product of rows `a` and `b`. The rest is pointwise.
-/
import proofs.«127256_j67010079752234_2_alg».proof.Proof.Gen.KernelIdeal.Skeleton
import proofs.«127256_j67010079752234_2_alg».proof.Proof.LibKeepdims
import proofs.«127256_j67010079752234_2_alg».proof.Proof.TripletSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.DistValue

open Cert.KernelIdeal Cert.KernelIdeal.Gen Cert.TripletSpec Cert.LibKeepdims
open Idealize.ShloMosaic Idealize.ShloMosaic.ValueIdx

/-- The column of row sums of squares reads, at row `a`, the squared norm of row `a`. -/
theorem sq_col (x : FVec Ideal S256x2048 .f32) (a : Fin 256) :
    shapeCast S256x1 (multiReduction .add [1] S256 (mulf x x) 0x00000000#32 reduces_S256x2048_S256 (.inl rfl) rfl)
      shapeCasts_S256_S256x1 (ix2 a (0 : Fin 1)) = sqn x a :=
  (shapeCast_a_a1_apply _ _ a 0).trans ((multiReduction_add_rows (mulf x x) _ _ _ _ a).trans rfl)

/-- The column broadcast along the rows: entry `(a, b)` is the squared norm of row `a`. -/
theorem sq_col_bcast (x : FVec Ideal S256x2048 .f32) (a b : Fin 256) :
    broadcastTo S256x256 (shapeCast S256x1 (multiReduction .add [1] S256 (mulf x x) 0x00000000#32 reduces_S256x2048_S256 (.inl rfl) rfl)
      shapeCasts_S256_S256x1) broadcasts_S256x1_S256x256 (ix2 a b) = sqn x a :=
  (broadcastTo_a1_ab_apply _ _ a b).trans (sq_col x a)

/-- The column transposed to a row and broadcast down the columns: entry `(a, b)` is the squared norm of row `b`. -/
theorem sq_row_bcast (x : FVec Ideal S256x2048 .f32) (a b : Fin 256) :
    broadcastTo S256x256 (transpose S1x256 [1, 0] (shapeCast S256x1 (multiReduction .add [1] S256 (mulf x x) 0x00000000#32 reduces_S256x2048_S256 (.inl rfl) rfl)
      shapeCasts_S256_S256x1) transposes_S256x1_p1_0_S1x256) broadcasts_S1x256_S256x256 (ix2 a b) = sqn x b :=
  (broadcastTo_1b_ab_apply _ _ a b).trans ((transpose_ix2_apply _ _ (0 : Fin 1) b).trans (sq_col x b))

/-! ## The matrix product of the block with its transpose -/

theorem lhs_0 (i : S256x256.Idx) (q : dot_S256x2048_S2048x256_S256x256_1_0_0_1_n_n.contr.Idx) :
    (dot_S256x2048_S2048x256_S256x256_1_0_0_1_n_n.lhsIdx i q 0).val = (i 0).val := by
  unfold DotDims.lhsIdx
  rw [dif_neg (show ¬(0 : Fin S256x2048.rank) ∈ dot_S256x2048_S2048x256_S256x256_1_0_0_1_n_n.lhsBatch by decide), dif_pos (show (0 : Fin S256x2048.rank) ∈ dot_S256x2048_S2048x256_S256x256_1_0_0_1_n_n.lhsNonContracting by decide)]
  rfl
theorem lhs_1 (i : S256x256.Idx) (q : dot_S256x2048_S2048x256_S256x256_1_0_0_1_n_n.contr.Idx) :
    (dot_S256x2048_S2048x256_S256x256_1_0_0_1_n_n.lhsIdx i q 1).val = (q ⟨0, by decide⟩).val :=
  dot_S256x2048_S2048x256_S256x256_1_0_0_1_n_n.lhsIdx_val_of_single rfl i q
theorem rhs_0 (i : S256x256.Idx) (q : dot_S256x2048_S2048x256_S256x256_1_0_0_1_n_n.contr.Idx) :
    (dot_S256x2048_S2048x256_S256x256_1_0_0_1_n_n.rhsIdx i q 0).val = (q ⟨0, by decide⟩).val :=
  dot_S256x2048_S2048x256_S256x256_1_0_0_1_n_n.rhsIdx_val_of_single rfl i q
theorem rhs_1 (i : S256x256.Idx) (q : dot_S256x2048_S2048x256_S256x256_1_0_0_1_n_n.contr.Idx) :
    (dot_S256x2048_S2048x256_S256x256_1_0_0_1_n_n.rhsIdx i q 1).val = (i 1).val := by
  unfold DotDims.rhsIdx
  rw [dif_neg (show ¬(1 : Fin S2048x256.rank) ∈ dot_S256x2048_S2048x256_S256x256_1_0_0_1_n_n.rhsBatch by decide), dif_pos (show (1 : Fin S2048x256.rank) ∈ dot_S256x2048_S2048x256_S256x256_1_0_0_1_n_n.rhsNonContracting by decide)]
  rfl

/-- The product onto a zero accumulator reads, at `(a, b)`, the inner product of rows `a` and `b`: the contraction runs
    over the one shared axis, the left factor at `(a, k)`, the transposed right factor at `(k, b)`, that is the block at
    `(b, k)`. -/
theorem gram_apply (x : FVec Ideal S256x2048 .f32) (a b : Fin 256) :
    matmul dot_S256x2048_S2048x256_S256x256_1_0_0_1_n_n (some .fp32) x
      (transpose S2048x256 [1, 0] x transposes_S256x2048_p1_0_S2048x256) (constant S256x256 .f32 0x00000000#32) (ix2 a b)
      = gram x a b := by
  simp only [matmul]
  rw [Ideal.matmul_constant_zero_apply, ← Equiv.sum_comp (contrEquiv1 dot_S256x2048_S2048x256_S256x256_1_0_0_1_n_n 2048 rfl rfl).symm]
  unfold gram
  refine Finset.sum_congr rfl fun k _ => ?_
  have hk := contrEquiv1_symm_val dot_S256x2048_S2048x256_S256x256_1_0_0_1_n_n 2048 rfl rfl k
  have el : dot_S256x2048_S2048x256_S256x256_1_0_0_1_n_n.lhsIdx (ix2 a b) ((contrEquiv1 dot_S256x2048_S2048x256_S256x256_1_0_0_1_n_n 2048 rfl rfl).symm k) = ix2 a k := funext fun d => Fin.ext (by
    match d with
    | ⟨0, _⟩ => exact lhs_0 _ _
    | ⟨1, _⟩ => exact (lhs_1 _ _).trans hk)
  have er : dot_S256x2048_S2048x256_S256x256_1_0_0_1_n_n.rhsIdx (ix2 a b) ((contrEquiv1 dot_S256x2048_S2048x256_S256x256_1_0_0_1_n_n 2048 rfl rfl).symm k) = ix2 k b := funext fun d => Fin.ext (by
    match d with
    | ⟨0, _⟩ => exact (rhs_0 _ _).trans hk
    | ⟨1, _⟩ => exact rhs_1 _ _)
  rw [el, er]
  exact congrArg (x (ix2 a k) * ·) (transpose_ix2_apply x transposes_S256x2048_p1_0_S2048x256 k b)

/-! ## The stored value -/

/-- What the first kernel stores, at `(a, b)`: the clamped distance between rows `a` and `b` of its block. -/
theorem dist_payload (x : Vec Ideal S256x2048 .f32) (a b : Fin 256) :
    k0_pay1 (F := Ideal) x (ix2 a b) = rowDist x a b := by
  unfold k0_pay1 rowDist
  exact congrArg Ideal.sqrt (congrArg₂ max
    (congrArg₂ (· - ·) (congrArg₂ (· + ·) (sq_col_bcast x a b) (sq_row_bcast x a b))
      (congrArg (Ideal.ofBits .f32 0x40000000#32 * ·) (gram_apply x a b))) rfl)

end Cert.KernelIdeal.DistValue

end
-- ==== Proof.LibPairAxes.lean ====
/-
  A matrix placed on two of three axes, read at an index. An `[a, b]` matrix cast to `[a, b, 1]` or to `[a, 1, b]` keeps
  its entries (the unit axis carries no position), and a broadcast of either to `[a, b, c]` repeats it along the unit axis:
  together they read the matrix at the first two, or the first and third, coordinates. General lemmas over any extents.
-/
import Idealize.ShloMosaic.Lib.Pipeline.Value
import Idealize.ShloMosaic.Lib.ValueIdx

noncomputable section

namespace Cert.LibPairAxes

open Idealize.ShloMosaic Idealize.ShloMosaic.ValueIdx

variable {α : Type}

/-- An `[a, b]` matrix cast to `[a, b, 1]` reads, at `(i, j, u)`, the matrix at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b]` matrix cast to `[a, 1, b]` reads, at `(i, u, j)`, the matrix at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- The two together, on the first two axes: the matrix at `(i, j)`, whatever the third coordinate. -/
theorem bcast_cast_ab1 {a b c : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x hc) hb (ix3 i j k) = x (ix2 i j) :=
  (broadcastTo_ab1_abc_apply _ hb i j k).trans (shapeCast_ab_ab1_apply x hc i j 0)

/-- The two together, on the first and third axes: the matrix at `(i, k)`, whatever the second coordinate. -/
theorem bcast_cast_a1b {a b c : ℕ} (x : (⟨2, ![a, c]⟩ : Shape).Idx → α)
    (hc : (⟨2, ![a, c]⟩ : Shape).ShapeCasts ⟨3, ![a, 1, c]⟩) (hb : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x hc) hb (ix3 i j k) = x (ix2 i k) :=
  (broadcastTo_a1c_abc_apply _ hb i j k).trans (shapeCast_ab_a1b_apply x hc i 0 k)

end Cert.LibPairAxes

end
-- ==== Proof.TripKernel.lean ====
/-
  The second kernel body's stored value, read at `(r, p, n)` of its `[16, 256, 256]` block.

  The body holds sixteen rows of the distance matrix, the sixteen anchors' labels as a column and all labels as a row.
  It places the rows on the first two axes and on the first and third axes of the block and subtracts: at `(r, p, n)`
  that is the distance from anchor `r` to `p` minus the distance from anchor `r` to `n`; adds the margin and clamps below.
  It compares the anchors' column against the row of all labels for "equal" and for "different", turns each bit into
  `0` or `1`, places the first on the first two axes and the second on the first and third, and multiplies: the product
  keeps the clamped term where anchor `r` and `p` share a label and anchor `r` and `n` do not, and gives zero elsewhere.
-/
import proofs.«127256_j67010079752234_2_alg».proof.Proof.Gen.KernelIdeal.Skeleton
import proofs.«127256_j67010079752234_2_alg».proof.Proof.LibKeepdims
import proofs.«127256_j67010079752234_2_alg».proof.Proof.LibPairAxes
import proofs.«127256_j67010079752234_2_alg».proof.Proof.TripletSpec
import Idealize.ShloMosaic.Lib.Pipeline.Value
import Idealize.ShloMosaic.Lib.ValueIdx
import Idealize.ShloMosaic.Lib.ValueLayout

noncomputable section

namespace Cert.KernelIdeal.TripValue

open Cert.KernelIdeal Cert.KernelIdeal.Gen Cert.TripletSpec Cert.LibKeepdims Cert.LibPairAxes
open Idealize.ShloMosaic Idealize.ShloMosaic.ValueIdx

/-- The rows of distances placed on the first two axes: at `(r, p, n)`, the distance from anchor `r` to `p`. -/
theorem rows_ap (v0 : FVec Ideal S16x256 .f32) (r : Fin 16) (p n : Fin 256) :
    broadcastTo S16x256x256 (shapeCast S16x256x1 (shapeCast S16x256 v0 shapeCasts_S16x256_S16x256) shapeCasts_S16x256_S16x256x1)
      broadcasts_S16x256x1_S16x256x256 (ix3 r p n) = v0 (ix2 r p) :=
  (bcast_cast_ab1 _ _ _ r p n).trans (congrFun (shapeCast_self v0 shapeCasts_S16x256_S16x256) (ix2 r p))

/-- The rows of distances placed on the first and third axes: at `(r, p, n)`, the distance from anchor `r` to `n`. -/
theorem rows_an (v0 : FVec Ideal S16x256 .f32) (r : Fin 16) (p n : Fin 256) :
    broadcastTo S16x256x256 (shapeCast S16x1x256 (shapeCast S16x256 v0 shapeCasts_S16x256_S16x256) shapeCasts_S16x256_S16x1x256)
      broadcasts_S16x1x256_S16x256x256 (ix3 r p n) = v0 (ix2 r n) :=
  (bcast_cast_a1b _ _ _ r p n).trans (congrFun (shapeCast_self v0 shapeCasts_S16x256_S16x256) (ix2 r n))

/-- The anchors' column broadcast along the rows: at `(r, q)`, anchor `r`'s label. -/
theorem anchor_at (v2 : IVec S16x1 32) (r : Fin 16) (q : Fin 256) :
    broadcastTo S16x256 (shapeCast S16x1 v2 shapeCasts_S16x1_S16x1) broadcasts_S16x1_S16x256 (ix2 r q) = v2 (ix2 r (0 : Fin 1)) :=
  (broadcastTo_a1_ab_apply _ _ r q).trans (congrFun (shapeCast_self v2 shapeCasts_S16x1_S16x1) _)

/-- The row of all labels broadcast down the columns: at `(r, q)`, the label of `q`. -/
theorem label_at (v4 : IVec S1x256 32) (r : Fin 16) (q : Fin 256) :
    broadcastTo S16x256 (shapeCast S1x256 v4 shapeCasts_S1x256_S1x256) broadcasts_S1x256_S16x256 (ix2 r q) = v4 (ix2 (0 : Fin 1) q) :=
  (broadcastTo_1b_ab_apply _ _ r q).trans (congrFun (shapeCast_self v4 shapeCasts_S1x256_S1x256) _)

/-- What the second kernel stores, at `(r, p, n)`. -/
theorem triplet_payload (v0 : Vec Ideal S16x256 .f32) (v2 : Vec Ideal S16x1 .i32) (v4 : Vec Ideal S1x256 .i32)
    (r : Fin 16) (p n : Fin 256) :
    k1_pay1 (F := Ideal) v0 v2 v4 (ix3 r p n)
      = if v2 (ix2 r (0 : Fin 1)) = v4 (ix2 (0 : Fin 1) p) ∧ v2 (ix2 r (0 : Fin 1)) ≠ v4 (ix2 (0 : Fin 1) n)
          then max (v0 (ix2 r p) - v0 (ix2 r n) + Ideal.ofBits .f32 0x3E99999A#32) (Ideal.ofBits .f32 0x2B8CBCCC#32) else 0 := by
  unfold k1_pay1
  refine Eq.trans ?_ (mul_indicators _ (v2 (ix2 r (0 : Fin 1))) (v4 (ix2 (0 : Fin 1) p)) (v4 (ix2 (0 : Fin 1) n)))
  refine congrArg₂ (· * ·) ?_ (congrArg₂ (· * ·) ?_ ?_)
  · exact congrArg₂ max (congrArg₂ (· + ·) (congrArg₂ (· - ·) (rows_ap v0 r p n) (rows_an v0 r p n)) rfl) rfl
  · refine (bcast_cast_ab1 _ _ _ r p n).trans ?_
    exact congrArg₂ (fun u v : BitVec 32 => ((((IntOp.cmpi .eq u v).setWidth 32).toInt : ℝ) : EReal))
      (anchor_at v2 r p) (label_at v4 r p)
  · refine (bcast_cast_a1b _ _ _ r p n).trans ?_
    exact congrArg₂ (fun u v : BitVec 32 => ((((IntOp.cmpi .ne u v).setWidth 32).toInt : ℝ) : EReal))
      (anchor_at v2 r n) (label_at v4 r n)

end Cert.KernelIdeal.TripValue

end
-- ==== Proof.Region1Value.lean ====
/-
  The result array after the second region.

  The second region's grid has sixteen points. At point `t` the distance window and the anchors' column sit at block
  `t` of sixteen rows, the row of all labels at its one block, and the output at slab `t` of sixteen anchors: the row
  `r` of a block is row `16·t + r` of its array. So entry `(r, p, n)` of what point `t` writes back depends on the
  distances from anchor `16·t + r`, on that anchor's label and on the labels of `p` and `n`, and is the specification's
  value at `(16·t + r, p, n)`. The sixteen slabs tile the output: anchor `a` lies in slab `a / 16`.
-/
import proofs.«127256_j67010079752234_2_alg».proof.Proof.Gen.KernelIdeal.Frame
import proofs.«127256_j67010079752234_2_alg».proof.Proof.Between
import proofs.«127256_j67010079752234_2_alg».proof.Proof.DistKernel
import proofs.«127256_j67010079752234_2_alg».proof.Proof.TripKernel
import proofs.«127256_j67010079752234_2_alg».proof.Proof.LibKeepdims
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Region1

open Cert.KernelIdeal Cert.KernelIdeal.Gen Cert.TripletSpec
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

theorem offsets2 : (![0, 0] : Fin 2 → Nat) = fun _ => 0 := funext fun a => by fin_cases a <;> rfl
theorem offsets3 : (![0, 0, 0] : Fin 3 → Nat) = fun _ => 0 := funext fun a => by fin_cases a <;> rfl

/-- The printed index maps over the grid: the distance rows, the anchors' column and the output slab move with the
    point on their first axis; everything else sits at block zero. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-! ## The input blocks at a point -/

/-- Entry `(r, q)` of the distance block at point `t` is the distance from anchor `a = 16·t + r` to `q`. -/
theorem dist_block (c : Dev nD) (t : Fin cfg1.N) (r : Fin 16) (q a : Fin 256) (ha : a.val = t.val * 16 + r.val) :
    iblk1 (V2 m ρ) c 0 t (ix2 r q) = rowDist (m ((c : Thread nD τ).loc main_arg0)) a q := by
  obtain ⟨e0, e1, -⟩ := index_facts t
  show V2 m ρ c main_v0 (((cfg1.win 0).blk t).view.emb (ix2 r q)) = _
  have h : ((cfg1.win 0).blk t).view.emb (ix2 r q) = ix2 a q := by
    funext d; apply Fin.ext
    match d with
    | ⟨0, _⟩ => show win1_0.index t (0 : Fin 2) * 16 + 1 * r.val = a.val; omega
    | ⟨1, _⟩ => show win1_0.index t (1 : Fin 2) * 256 + 1 * q.val = q.val; omega
  rw [h]
  exact (congrFun (Between.entry_dist m ρ c) (ix2 a q)).trans (DistValue.dist_payload _ a q)

/-- Row `r` of the anchors' column at point `t` is the label of anchor `a = 16·t + r`. -/
theorem anchor_block (c : Dev nD) (t : Fin cfg1.N) (r : Fin 16) (a : Fin 256) (ha : a.val = t.val * 16 + r.val) :
    iblk1 (V2 m ρ) c 1 t (ix2 r (0 : Fin 1)) = m ((c : Thread nD τ).loc main_arg1) (ix1 a) := by
  obtain ⟨-, -, e2, e3, -⟩ := index_facts t
  show V2 m ρ c main_v1 (((cfg1.win 1).blk t).view.emb (ix2 r (0 : Fin 1))) = _
  have h : ((cfg1.win 1).blk t).view.emb (ix2 r (0 : Fin 1)) = ix2 a (0 : Fin 1) := by
    funext d; apply Fin.ext
    match d with
    | ⟨0, _⟩ => show win1_1.index t (0 : Fin 2) * 16 + 1 * r.val = a.val; omega
    | ⟨1, _⟩ => show win1_1.index t (1 : Fin 2) * 1 + 1 * 0 = 0; omega
  rw [h]
  exact (congrFun (Between.entry_col m ρ c) (ix2 a (0 : Fin 1))).trans (LibKeepdims.shapeCast_a_a1_apply _ _ a 0)

/-- Entry `q` of the row of all labels, at any point, is the label of `q`. -/
theorem label_block (c : Dev nD) (t : Fin cfg1.N) (q : Fin 256) :
    iblk1 (V2 m ρ) c 2 t (ix2 (0 : Fin 1) q) = m ((c : Thread nD τ).loc main_arg1) (ix1 q) := by
  obtain ⟨-, -, -, -, e4, e5, -⟩ := index_facts t
  show V2 m ρ c main_v2 (((cfg1.win 2).blk t).view.emb (ix2 (0 : Fin 1) q)) = _
  have h : ((cfg1.win 2).blk t).view.emb (ix2 (0 : Fin 1) q) = ix2 (0 : Fin 1) q := by
    funext d; apply Fin.ext
    match d with
    | ⟨0, _⟩ => show win1_2.index t (0 : Fin 2) * 1 + 1 * 0 = 0; omega
    | ⟨1, _⟩ => show win1_2.index t (1 : Fin 2) * 256 + 1 * q.val = q.val; omega
  rw [h]
  exact (congrFun (Between.entry_row m ρ c) (ix2 (0 : Fin 1) q)).trans (shapeCast_a_1a_apply _ _ 0 q)

/-! ## What a point writes back -/

/-- The stored value of three blocks whose entries are the distances from anchor `a`, anchor `a`'s label and the labels
    of all, at `(r, p, n)`, is the specification's value at `(a, p, n)`. -/
theorem block_entry (D : Vec Ideal S16x256 .f32) (ta : Vec Ideal S16x1 .i32) (tall : Vec Ideal S1x256 .i32)
    (x : (⟨2, ![256, 2048]⟩ : Shape).Idx → EReal) (tt : (⟨1, ![256]⟩ : Shape).Idx → BitVec 32)
    (a : Fin 256) (r : Fin 16) (p n : Fin 256)
    (hp : D (ix2 r p) = rowDist x a p) (hn : D (ix2 r n) = rowDist x a n)
    (ha : ta (ix2 r (0 : Fin 1)) = tt (ix1 a)) (hlp : tall (ix2 (0 : Fin 1) p) = tt (ix1 p))
    (hln : tall (ix2 (0 : Fin 1) n) = tt (ix1 n)) :
    k1_pay1 (F := Ideal) D ta tall (ix3 r p n) = result x tt (ix3 a p n) := by
  rw [TripValue.triplet_payload, hp, hn, ha, hlp, hln]
  rfl

/-- What point `t` writes back is its slab of the specification's array. -/
theorem flushed_eq (c : Dev nD) (t : Fin cfg1.N) :
    (dat1 (V2 m ρ) c).flushed 3 t
      = ((cfg1.win 3).blk t).view.read (Elt Ideal)
          (result (m ((c : Thread nD τ).loc main_arg0)) (m ((c : Thread nD τ).loc main_arg1))) := by
  show (cfg1.win 3).cut (grid1.coords t) ((dat1 (V2 m ρ) c).after 3 t) = _
  rw [after1_3]
  unfold out1_3
  rw [View.canon_unit_zero offsets3]
  simp only [View.ld_unit_zero (S := S16x256) offsets2, View.ld_unit_zero (S := S16x1) offsets2,
    View.ld_unit_zero (S := S1x256) offsets2]
  obtain ⟨-, -, -, -, -, -, e6, e7, e8⟩ := index_facts t
  have ht : t.val < 16 := lt_of_lt_of_eq t.isLt N_1
  funext j
  obtain ⟨r, p, n, rfl⟩ : ∃ (r : Fin 16) (p n : Fin 256), j = ix3 r p n := ⟨j 0, j 1, j 2, eq_ix3 j⟩
  show k1_pay1 (F := Ideal) (iblk1 (V2 m ρ) c 0 t) (iblk1 (V2 m ρ) c 1 t) (iblk1 (V2 m ρ) c 2 t) (ix3 r p n)
    = result (m ((c : Thread nD τ).loc main_arg0)) (m ((c : Thread nD τ).loc main_arg1))
        (((cfg1.win 3).blk t).view.emb (ix3 r p n))
  have he : ((cfg1.win 3).blk t).view.emb (ix3 r p n)
      = ix3 (⟨t.val * 16 + r.val, by have := r.isLt; omega⟩ : Fin 256) p n := by
    funext d; apply Fin.ext
    match d with
    | ⟨0, _⟩ => show win1_3.index t (0 : Fin 3) * 16 + 1 * r.val = t.val * 16 + r.val; omega
    | ⟨1, _⟩ => show win1_3.index t (1 : Fin 3) * 256 + 1 * p.val = p.val; omega
    | ⟨2, _⟩ => show win1_3.index t (2 : Fin 3) * 256 + 1 * n.val = n.val; omega
  rw [he]
  exact block_entry (iblk1 (V2 m ρ) c 0 t) (iblk1 (V2 m ρ) c 1 t) (iblk1 (V2 m ρ) c 2 t)
    (m ((c : Thread nD τ).loc main_arg0)) (m ((c : Thread nD τ).loc main_arg1))
    (⟨t.val * 16 + r.val, by have := r.isLt; omega⟩ : Fin 256) r p n
    (dist_block m ρ c t r p _ rfl) (dist_block m ρ c t r n _ rfl) (anchor_block m ρ c t r _ rfl)
    (label_block m ρ c t p) (label_block m ρ c t n)

/-! ## The slabs tile the output -/

/-- An index of the output array is in point `t`'s slab iff each coordinate is in the slab's range on its axis. -/
theorem mem_blk (t : Fin cfg1.N) (i : S256x256x256.Idx) :
    i ∈ ((cfg1.win 3).blk t).view.set ↔ ∀ a : Fin 3, win1_3.index t a * S16x256x256.size a ≤ (i a).val ∧ (i a).val < win1_3.index t a * S16x256x256.size a + S16x256x256.size a := by
  show i ∈ ((View.whole main_v3).slice (win1_3.rect t)).set ↔ _
  rw [View.set_slice_whole, Rect.mem_set_unit]
  exact Iff.rfl

/-- Every index of the output array is in some point's slab: anchor `a` in slab `a / 16`. -/
theorem cover (i : S256x256x256.Idx) :
    ∃ t : Fin cfg1.N, (cfg1.win 3).flush t = true ∧ i ∈ ((cfg1.win 3).blk t).view.set := by
  have hi0 : (i 0).val < 256 := (i 0).isLt
  have hi1 : (i 1).val < 256 := (i 1).isLt
  have hi2 : (i 2).val < 256 := (i 2).isLt
  refine ⟨⟨(i 0).val / 16, lt_of_lt_of_eq (by omega : (i 0).val / 16 < 16) N_1.symm⟩, flush1_3 _, ?_⟩
  obtain ⟨-, -, -, -, -, -, e6, e7, e8⟩ := index_facts ⟨(i 0).val / 16, lt_of_lt_of_eq (by omega : (i 0).val / 16 < 16) N_1.symm⟩
  rw [mem_blk]
  intro a
  match a with
  | ⟨0, _⟩ =>
    show win1_3.index _ (0 : Fin 3) * 16 ≤ (i 0).val ∧ (i 0).val < win1_3.index _ (0 : Fin 3) * 16 + 16
    rw [e6]
    show (i 0).val / 16 * 16 ≤ (i 0).val ∧ (i 0).val < (i 0).val / 16 * 16 + 16
    omega
  | ⟨1, _⟩ =>
    show win1_3.index _ (1 : Fin 3) * 256 ≤ (i 1).val ∧ (i 1).val < win1_3.index _ (1 : Fin 3) * 256 + 256
    rw [e7]
    omega
  | ⟨2, _⟩ =>
    show win1_3.index _ (2 : Fin 3) * 256 ≤ (i 2).val ∧ (i 2).val < win1_3.index _ (2 : Fin 3) * 256 + 256
    rw [e8]
    omega

/-- After the second region the result array is the specification's array of the launched arguments. -/
theorem result_array (c : Dev nD) :
    W3 m ρ c (Proc.devRef .tc main_v3)
      = result (m ((c : Thread nD τ).loc main_arg0)) (m ((c : Thread nD τ).loc main_arg1)) :=
  (W3_arr m ρ c 3).trans
    ((dat1 (V2 m ρ) c).arrAt_eq_of_cover 3 _ (fun t _ => flushed_eq m ρ c t) cover)

end Cert.KernelIdeal.Region1

end
-- ==== Proof.DistRef.lean ====
/-
  The reference's distance matrix, read at an entry `(a, b)`, is the same clamped distance between rows `a` and `b`.

  The host sums each row's squares (zero plus the sum over the row), places the sums along the rows and along the columns
  by two broadcasts each, and contracts the matrix with its transpose over the shared axis. Its clip takes the maximum
  with `ε` written first, where the specification writes it second: the maximum is symmetric.
-/
import proofs.«127256_j67010079752234_2_alg».proof.Proof.Gen.ReferenceIdeal.Read
import proofs.«127256_j67010079752234_2_alg».proof.Proof.TripletSpec
import Idealize.ShloMosaic.Lib.ValueIdx
import Idealize.ShloMosaic.PureOps.Ideal.Laws

noncomputable section

open scoped BigOperators

namespace Cert.ReferenceIdeal.DistValue

open Cert.ReferenceIdeal Cert.ReferenceIdeal.Read Cert.TripletSpec
open Idealize.ShloMosaic Idealize.ShloMosaic.ValueIdx

/-- The host's row sums of squares: at row `a`, the squared norm of row `a`. -/
theorem sq_at (x : (⟨S256x2048, .f32⟩ : BufTy).Contents (Elt Ideal)) (a : Fin 256) :
    val_main_v1 (F := Ideal) x (ix1 a) = sqn x a := by
  rw [val_main_v1_apply]
  show Ideal.ofBits .f32 0x00000000#32 + _ = _
  rw [Ideal.ofBits_zero_f32, zero_add]
  unfold sqn
  refine Finset.sum_congr rfl fun k _ => ?_
  have e : idx_main_v1 (ix1 a) k = ix2 a k :=
    funext fun d => Fin.ext (by match d with | ⟨0, _⟩ => rfl | ⟨1, _⟩ => rfl)
  rw [val_main_v0_apply, e]
  rfl

/-- The sums placed along the rows: entry `(a, b)` is the squared norm of row `a`. -/
theorem sq_rows_at (x : (⟨S256x2048, .f32⟩ : BufTy).Contents (Elt Ideal)) (a b : Fin 256) :
    val_main_v4 (F := Ideal) x (ix2 a b) = sqn x a := by
  have e : idx_main_v2 (idx_main_v4 (ix2 a b)) = ix1 a :=
    funext fun d => Fin.ext (by match d with | ⟨0, _⟩ => rfl)
  rw [val_main_v4_apply, val_main_v2_apply, e]
  exact sq_at x a

/-- The sums placed along the columns: entry `(a, b)` is the squared norm of row `b`. -/
theorem sq_cols_at (x : (⟨S256x2048, .f32⟩ : BufTy).Contents (Elt Ideal)) (a b : Fin 256) :
    val_main_v5 (F := Ideal) x (ix2 a b) = sqn x b := by
  have e : idx_main_v3 (idx_main_v5 (ix2 a b)) = ix1 b :=
    funext fun d => Fin.ext (by match d with | ⟨0, _⟩ => rfl)
  rw [val_main_v5_apply, val_main_v3_apply, e]
  exact sq_at x b

/-- The contraction with the transpose: entry `(a, b)` is the inner product of rows `a` and `b`. -/
theorem gram_at (x : (⟨S256x2048, .f32⟩ : BufTy).Contents (Elt Ideal)) (a b : Fin 256) :
    val_main_v8 (F := Ideal) x (ix2 a b) = gram x a b := by
  rw [val_main_v8_apply]
  unfold gram
  refine Finset.sum_congr rfl fun k _ => ?_
  have el : lidx_main_v8 (ix2 a b) k = ix2 a k :=
    funext fun d => Fin.ext (by match d with | ⟨0, _⟩ => rfl | ⟨1, _⟩ => rfl)
  have er : idx_main_v7 (ridx_main_v8 (ix2 a b) k) = ix2 b k :=
    funext fun d => Fin.ext (by match d with | ⟨0, _⟩ => rfl | ⟨1, _⟩ => rfl)
  rw [val_main_v7_apply, el, er]

/-- The reference's distance matrix at `(a, b)`. -/
theorem dist_ref (x : (⟨S256x2048, .f32⟩ : BufTy).Contents (Elt Ideal)) (a b : Fin 256) :
    val_main_v13 (F := Ideal) x (ix2 a b) = rowDist x a b := by
  rw [val_main_v13_apply, val_main_v12_apply, val_main_v11_apply, val_main_v6_apply, val_main_v10_apply,
    sq_rows_at, sq_cols_at, gram_at, val_main_v9_apply, val_main_cst_0_apply, val_main_call0_v1_apply,
    val_main_call0_v0_apply, val_main_cst_1_apply]
  unfold rowDist
  simp only [Ideal.hostUnary_sqrt_def, Ideal.maximumf_def, Ideal.subf_def, Ideal.addf_def, Ideal.mulf_def, Ideal.ofBits_def]
  rw [max_comm]

end Cert.ReferenceIdeal.DistValue

end
-- ==== Proof.TripRef.lean ====
/-
  The reference's result, read at `(a, p, n)`, is the specification's.

  The host compares every pair of labels once, places that matrix on the first two axes and its complement on the first
  and third axes of the cube, and takes their conjunction; it places the distance matrix the same two ways, subtracts,
  adds the margin, clamps below, and selects between that and zero on the conjunction.
-/
import proofs.«127256_j67010079752234_2_alg».proof.Proof.Gen.ReferenceIdeal.Read
import proofs.«127256_j67010079752234_2_alg».proof.Proof.TripletSpec
import proofs.«127256_j67010079752234_2_alg».proof.Proof.DistRef
import Idealize.ShloMosaic.Lib.ValueIdx
import Idealize.ShloMosaic.PureOps.Ideal.Laws

noncomputable section

namespace Cert.ReferenceIdeal.TripValue

open Cert.ReferenceIdeal Cert.ReferenceIdeal.Read Cert.ReferenceIdeal.DistValue Cert.TripletSpec
open Idealize.ShloMosaic Idealize.ShloMosaic.ValueIdx

/-- The matrix of label comparisons: entry `(a, b)` compares the labels of `a` and `b`. -/
theorem same_at (t : (⟨S256, .i32⟩ : BufTy).Contents (Elt Ideal)) (a b : Fin 256) :
    val_main_v18 (F := Ideal) t (ix2 a b) = IntOp.cmpi .eq (t (ix1 a)) (t (ix1 b)) := by
  have ea : idx_main_v14 (idx_main_v16 (ix2 a b)) = ix1 a :=
    funext fun d => Fin.ext (by match d with | ⟨0, _⟩ => rfl)
  have eb : idx_main_v15 (idx_main_v17 (ix2 a b)) = ix1 b :=
    funext fun d => Fin.ext (by match d with | ⟨0, _⟩ => rfl)
  rw [val_main_v18_apply, val_main_v16_apply, val_main_v14_apply, val_main_v17_apply, val_main_v15_apply, ea, eb]

/-- The comparisons placed on the first two axes: at `(a, p, n)`, the comparison of `a` with `p`. -/
theorem same_ap_at (t : (⟨S256, .i32⟩ : BufTy).Contents (Elt Ideal)) (a p n : Fin 256) :
    val_main_v30 (F := Ideal) t (ix3 a p n) = IntOp.cmpi .eq (t (ix1 a)) (t (ix1 p)) := by
  have e : idx_main_v27 (idx_main_v30 (ix3 a p n)) = ix2 a p :=
    funext fun d => Fin.ext (by match d with | ⟨0, _⟩ => rfl | ⟨1, _⟩ => rfl)
  rw [val_main_v30_apply, val_main_v27_apply, e]
  exact same_at t a p

/-- The complemented comparisons placed on the first and third axes: at `(a, p, n)`, the complement of the comparison of
    `a` with `n`. -/
theorem diff_an_at (t : (⟨S256, .i32⟩ : BufTy).Contents (Elt Ideal)) (a p n : Fin 256) :
    val_main_v31 (F := Ideal) t (ix3 a p n) = ~~~ IntOp.cmpi .eq (t (ix1 a)) (t (ix1 n)) := by
  have e : idx_main_v29 (idx_main_v31 (ix3 a p n)) = ix2 a n :=
    funext fun d => Fin.ext (by match d with | ⟨0, _⟩ => rfl | ⟨1, _⟩ => rfl)
  rw [val_main_v31_apply, val_main_v29_apply, e, val_main_v28_apply]
  exact congrArg (~~~ ·) (same_at t a n)

/-- The distances placed on the first two axes: at `(a, p, n)`, the distance from `a` to `p`. -/
theorem dist_ap_at (x : (⟨S256x2048, .f32⟩ : BufTy).Contents (Elt Ideal)) (a p n : Fin 256) :
    val_main_v21 (F := Ideal) x (ix3 a p n) = rowDist x a p := by
  have e : idx_main_v19 (idx_main_v21 (ix3 a p n)) = ix2 a p :=
    funext fun d => Fin.ext (by match d with | ⟨0, _⟩ => rfl | ⟨1, _⟩ => rfl)
  rw [val_main_v21_apply, val_main_v19_apply, e]
  exact dist_ref x a p

/-- The distances placed on the first and third axes: at `(a, p, n)`, the distance from `a` to `n`. -/
theorem dist_an_at (x : (⟨S256x2048, .f32⟩ : BufTy).Contents (Elt Ideal)) (a p n : Fin 256) :
    val_main_v22 (F := Ideal) x (ix3 a p n) = rowDist x a n := by
  have e : idx_main_v20 (idx_main_v22 (ix3 a p n)) = ix2 a n :=
    funext fun d => Fin.ext (by match d with | ⟨0, _⟩ => rfl | ⟨1, _⟩ => rfl)
  rw [val_main_v22_apply, val_main_v20_apply, e]
  exact dist_ref x a n

/-- The reference's result at `(a, p, n)`. -/
theorem result_ref (x : (⟨S256x2048, .f32⟩ : BufTy).Contents (Elt Ideal)) (t : (⟨S256, .i32⟩ : BufTy).Contents (Elt Ideal))
    (a p n : Fin 256) : val_main_v33 (F := Ideal) x t (ix3 a p n) = result x t (ix3 a p n) := by
  rw [val_main_v33_apply, val_main_v32_apply, same_ap_at, diff_an_at, val_main_v26_apply, val_main_v25_apply,
    val_main_v23_apply, dist_ap_at, dist_an_at, val_main_v24_apply, val_main_cst_2_apply, val_main_call1_v1_apply,
    val_main_call1_v0_apply, val_main_cst_3_apply, val_main_call2_v1_apply, val_main_call2_v0_apply, val_main_cst_4_apply]
  simp only [Ideal.maximumf_def, Ideal.addf_def, Ideal.subf_def, Ideal.ofBits_def]
  rw [Ideal.ofBits_zero_f32, select_and_not, max_comm]
  rfl

end Cert.ReferenceIdeal.TripValue

end
-- ==== Proof.lean ====
/-
  A batch of 256 rows of 2048 entries with an integer label per row. Both programs form the matrix of clamped
  Euclidean distances between rows,
      d(a, b) = √(max(|a|² + |b|² - 2·⟨a, b⟩, ε)),
  and from it, for every anchor `a`, positive `p` and negative `n`, the margin term
      max(d(a, p) - d(a, n) + μ, ε),
  kept where `a` and `p` carry the same label and `a` and `n` different ones, and zero elsewhere.

  The kernel program does this in two pipelined regions: the first computes the whole distance matrix at its one grid
  point; after the host has reshaped the labels to a column and a row, the second walks sixteen slabs of sixteen anchors
  and writes, for each, the margin term multiplied by the product of two 0/1 indicators. The reference selects between
  the margin term and zero on the conjunction of the two comparisons. On the extended reals a product with `1` is the
  factor and a product with `0` is `0`, whatever the factor, so the two results agree entry by entry and no finiteness
  of the inputs is used; the two distance matrices are the same sums and the same pointwise operations, up to the
  symmetry of the maximum.

  The frames of both kernel programs are the generated frame certificates; the reference's frame is its generated run
  with the result dropped; no operation was rewritten by the idealization, so there is nothing to preserve.
-/
import proofs.«127256_j67010079752234_2_alg».proof.Defs
import proofs.«127256_j67010079752234_2_alg».proof.Proof.Gen.Kernel
import proofs.«127256_j67010079752234_2_alg».proof.Proof.Gen.Kernel.Skeleton
import proofs.«127256_j67010079752234_2_alg».proof.Proof.Gen.Kernel.Launch
import proofs.«127256_j67010079752234_2_alg».proof.Proof.Gen.Kernel.Points
import proofs.«127256_j67010079752234_2_alg».proof.Proof.Gen.Kernel.Frame
import proofs.«127256_j67010079752234_2_alg».proof.Proof.Gen.KernelIdeal
import proofs.«127256_j67010079752234_2_alg».proof.Proof.Gen.KernelIdeal.Skeleton
import proofs.«127256_j67010079752234_2_alg».proof.Proof.Gen.KernelIdeal.Launch
import proofs.«127256_j67010079752234_2_alg».proof.Proof.Gen.KernelIdeal.Points
import proofs.«127256_j67010079752234_2_alg».proof.Proof.Gen.KernelIdeal.Frame
import proofs.«127256_j67010079752234_2_alg».proof.Proof.Gen.ReferenceIdeal
import proofs.«127256_j67010079752234_2_alg».proof.Proof.Gen.Pre_finite_inputs
import proofs.«127256_j67010079752234_2_alg».proof.Proof.Gen.ReferenceIdeal.Run
import proofs.«127256_j67010079752234_2_alg».proof.Proof.Gen.ReferenceIdeal.Read
import proofs.«127256_j67010079752234_2_alg».proof.Proof.TripletSpec
import proofs.«127256_j67010079752234_2_alg».proof.Proof.KernelRun
import proofs.«127256_j67010079752234_2_alg».proof.Proof.Region1Value
import proofs.«127256_j67010079752234_2_alg».proof.Proof.TripRef
import Idealize.ShloMosaic.Adequacy
import Idealize.ShloMosaic.Init

noncomputable section

namespace Cert.Proof

open Idealize.ShloMosaic Idealize.ShloMosaic.ValueIdx Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernel_ideal : Cert.frame_KernelIdeal := fun m ρ _ => Cert.KernelIdeal.Gen.frame m ρ

/-- The idealized reference runs and leaves its arguments as launched: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- On the extended reals both programs end with the specification's array of the launched arguments: the kernel's
    result array after its second region, and the reference's composed term read entry by entry. -/
theorem algebraic : Cert.algebraic_KernelIdeal_ReferenceIdeal := by
  intro m ρ m' ρ' _ hagree
  refine ⟨fun c => Cert.TripletSpec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Region1.result_array m ρ c), (h c).2⟩)
      (Cert.KernelIdeal.RunValue.run_result m ρ)
  · refine (θ_run Cert.ReferenceIdeal.defs _ _).mono
      (fun _ h c => ⟨((h c).1.trans (Cert.ReferenceIdeal.Read.val_main_v33_eq (F := Ideal) _ _)).trans ?_, (h c).2⟩)
      (Cert.ReferenceIdeal.Value.run (F := Ideal) m' ρ')
    rw [(hagree c).1, (hagree c).2]
    funext i
    obtain ⟨a, p, n, rfl⟩ : ∃ (a p n : Fin 256), i = ix3 a p n := ⟨i 0, i 1, i 2, eq_ix3 i⟩
    exact Cert.ReferenceIdeal.TripValue.result_ref _ _ a p n

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
